-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  main_v3
-- ==== Kernel.lean ====
abbrev S4x4096x128 : Shape := ⟨3, ![4, 4096, 128]⟩
abbrev S4x4096x4096 : Shape := ⟨3, ![4, 4096, 4096]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x4096x128.size a
  hwx0_1 : ∀ i : grid0.Coords, EltTy.bits .f32 = 32 ∨ (Rect.block (s := S4x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x4096.size a
  hwx0_2 : ∀ i : grid0.Coords, EltTy.bits .f32 = 32 ∨ (Rect.block (s := S4x4096x4096) S1x1024x1024.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x4096x4096, .f32⟩
  | .hbm, ⟨3, _⟩ => ⟨S4x4096x4096, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .i1⟩
  | .hbm, ⟨13, _⟩ => ⟨S_, .f32⟩
  | .hbm, ⟨14, _⟩ => ⟨S4x4096x4096, .f32⟩
  | .hbm, ⟨15, _⟩ => ⟨S4x4096x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_call0_v0 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x128_S4x4096x128_S4x4096x4096_2_2_1_1_0_0_wf : DotDims.WF S4x4096x128 S4x4096x128 S4x4096x4096 [2] [2] [1] [1] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.LibSharedFrame.lean ====
/-
  The frame run of a pipelined kernel whose input windows may read ONE array through several windows.

  When two windows stage blocks of the same array, the array's buffer cannot be held once per window at the
  full share.  What is true instead: the buffer, held whole at the full share when the region is entered, can be
  dealt out among the windows that read it, each at a positive share of its own, because reading needs only a
  share.  This file states the launch for that situation once, for any kernel that
    * runs one region on a static grid and has no semaphore or transfer of its own,
    * keeps nothing between grid points outside the staging buffers, and
    * does not use the generator register,
  so that the region invariant is just "the scoped buffers that are no staging buffer, at some contents".

  The conclusion is the same post as for distinct arrays: after the run every window's array holds what the
  pipeline computes from the proof data (an input its entry contents, an output those overwritten block by block
  at each write-back), and every other unscoped buffer what it held when the region was entered.

  The certificate supplies, besides the usual proof data and body obligation, how the distinct buffers behind the
  windows' arrays (each whole, full share, entry contents) make up the per-window holdings at their shares
  (`hsplit`).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when windows may share arrays.  `hinj`: the program's staging cells are pairwise distinct;
    `hw`: the windows' layout facts, the arrays' distinctness apart; `hsplit`: the buffers behind the arrays, whole
    at the region-entry contents `V`, yield every window's holding at its share; `hΦ`: the invariant between
    points is the scoped rest and nothing else. -/
theorem θ_run_frame_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr
      · iempintro
      · iexact HU)
    (hin := fun c => by
      rw [hΦ]
      iintro ⟨-, HR⟩
      iexact HR)
    (hout := fun c => by
      rw [hΦ]
      iintro HR
      isplitr
      · iempintro
      · iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end SharedFrame

end Pipeline

end Idealize.ShloMosaic

end
-- ==== Proof.KernelFrame.lean ====
/-
  The run of the pairwise-similarity kernel, block by block.

  The region has a 4 × 4 × 4 grid of points (g, i, j).  At a point the pipeline stages two blocks of the SAME
  input array x : [4, 4096, 128] — rows 1024·i … 1024·i + 1023 of group g through the first window, rows
  1024·j … 1024·j + 1023 of group g through the second — and one block [1, 1024, 1024] of the result, at
  block index (g, i, j).  The body loads both input blocks whole, computes one value from them and stores it over
  the whole output block; it keeps nothing from one point to the next.

  Because both input windows read one array, the array's buffer is dealt between them: the first window holds the
  left half of the full share, the second the right half; the result's array is held outright.  With that
  dealing the launch for windows that share an array applies, and gives: the program terminates without a fault,
  the input array ends as it began, and the result array ends at what the pipeline computes from the blocks the
  body leaves (the value each point writes back is the body's value of that point's two input blocks).
-/
import proofs.«108892_j35837207118672_2_alg».proof.Proof.Gen.Kernel.Launch
import proofs.«108892_j35837207118672_2_alg».proof.Proof.Gen.Kernel.Skeleton
import proofs.«108892_j35837207118672_2_alg».proof.Proof.Gen.Kernel.Points
import proofs.«108892_j35837207118672_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers of core `c` when the region is entered: the program is the region alone, so they are as launched. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The row window's staging buffer holds its block at every point, whether the point fetched it or not: when it
    is not fetched the block index has not moved since the last fetch, and the body leaves the block in place. -/
theorem rowBefore_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- The same for the column window. -/
theorem colBefore_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-! ## What the body leaves in the output block -/

/-- The whole input block and the whole output block, as the rectangles the body loads and stores through. -/
abbrev rIn : Rect S1x1024x128 := Rect.unit (s := S1x1024x128) ![0, 0, 0] S1x1024x128.size inb_S1x1024x128_S1x1024x128_0_0_0
abbrev rOut : Rect S1x1024x1024 := Rect.unit (s := S1x1024x1024) ![0, 0, 0] S1x1024x1024.size inb_S1x1024x1024_S1x1024x1024_0_0_0

/-- The output buffer after the body: its one store, of the body's value of the two input blocks, over the whole block. -/
def outBlock (x0 : Vec F S1x1024x128 .f32) (x1 : Vec F S1x1024x128 .f32) : Vec F S1x1024x1024 .f32 :=
  View.canon [⟨rOut, k0_pay1 (View.ld x0 rIn) (View.ld x1 rIn)⟩]

/-- That store covers the block. -/
theorem outCover (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole staging memrefs — the inputs' at contents read as `x0`, `x1`, the output's at anything —
    leaves the inputs as they were and the output at `outBlock x0 x1`. -/
theorem sound_kernel (c : Dev nD) (E : Set ℕ) (i : grid0.Coords)
    (arg3 : Memref sig .tc .vmem S1x1024x128 .f32) (harg3 : arg3.IsWhole)
    (arg4 : Memref sig .tc .vmem S1x1024x128 .f32) (harg4 : arg4.IsWhole)
    (arg5 : Memref sig .tc .vmem S1x1024x1024 .f32) (harg5 : arg5.IsWhole)
    (x0 : Vec F S1x1024x128 .f32) (x1 : Vec F S1x1024x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outBlock x0 x1)) -∗ K ⟨⟩))
      ⊢ wp frame (wpE (defs₀ (F := F)) Variants.none c none) E (cc0__kernel i arg3 harg3 arg4 harg4 arg5 harg5) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- On core `c`: the arrays as the region finds them; after the body at point `t` each input buffer at its block and
    the output buffer at `outBlock` of the two input blocks; between points only the scoped rest; the input array's
    share dealt left half / right half between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => (fullShare : PosShare TreeShare).left
    | ⟨1, _⟩ => (fullShare : PosShare TreeShare).right
    | ⟨2, _⟩ => fullShare
  owed _ := 0

theorem A_eq (c : Dev nD) (w : Fin cfg0.W) : (dats m 0 c).A w = V m c (Pipeline.arrRef spec0 w) := by
  dsimp only [dats]

theorem afterRow (c : Dev nD) (t : Fin cfg0.N) : (dats m 0 c).after 0 t = iblk m c 0 t := by dsimp only [dats]
theorem afterCol (c : Dev nD) (t : Fin cfg0.N) : (dats m 0 c).after 1 t = iblk m c 1 t := by dsimp only [dats]
theorem afterOut (c : Dev nD) (t : Fin cfg0.N) :
    (dats m 0 c).after 2 t = outBlock (iblk m c 0 t) (iblk m c 1 t) := by dsimp only [dats]

theorem beforeRow (c : Dev nD) (t : Fin cfg0.N) (d) : (dats m 0 c).before 0 t d = iblk m c 0 t :=
  rowBefore_of m (dats m 0 c) (A_eq m c 0) (afterRow m c) t d
theorem beforeCol (c : Dev nD) (t : Fin cfg0.N) (d) : (dats m 0 c).before 1 t d = iblk m c 1 t :=
  colBefore_of m (dats m 0 c) (A_eq m c 1) (afterCol m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and what the core
    owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeRow, beforeCol]
  rw [show (dats m 0 c).Φ t.succ = (dats m 0 c).Φ t.castSucc from rfl,
    show (dats m 0 c).owesAt () t.succ = (dats m 0 c).owesAt () t.castSucc from rfl,
    afterRow, afterCol, afterOut]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## Dealing the input array between its two windows -/

/-- The two distinct buffers behind the three windows' arrays, each whole at the full share, give the three windows'
    holdings: the input array's full share splits into its left and right halves, one per reading window. -/
theorem deal (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_v0] (by decide) (by decide), bigSep_W0]
  simp only [bigSepL_cons_cons, bigSepL_singleton]
  have hs0 : (dats m 0 c).share 0 = (fullShare : PosShare TreeShare).left := rfl
  have hs1 : (dats m 0 c).share 1 = (fullShare : PosShare TreeShare).right := rfl
  have hs2 : (dats m 0 c).share 2 = fullShare := rfl
  rw [hs0, hs1, hs2, (arr_whole0 0).set_eq_univ, (arr_whole0 2).set_eq_univ]
  refine (Idealize.SL.BI.sep_mono_l (pointsTo_share (PosShare.mem_left_op_right fullShare)).1).trans ?_
  show (iprop((_ ∗ _) ∗ _) : sProp 𝕄) ⊢ _
  iintro ⟨⟨Hl, Hr⟩, Hv⟩
  isplitl [Hl]; · iexact Hl
  isplitl [Hr]; · iexact Hr
  iexact Hv

/-! ## The run and the frame -/

set_option backward.isDefEq.respectTransparency.types false in
/-- Every weakly fair execution of the program terminates without a fault; at the end every window's array holds
    what the pipeline computes from the proof data, and every other unscoped buffer what it held at the start. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0
    m ρ main (hbody := fun c => (body_obligation m c).loose) (howed := fun _ _ => rfl) (V := V m)
    (hmain := hmain m Variants.none) (hsplit := deal m) (hΦ := fun _ _ => rfl)

/-- The input array is only read: it ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Sim

end
-- ==== Proof.KernelIdealFrame.lean ====
/-
  The run of the pairwise-similarity kernel, block by block.

  The region has a 4 × 4 × 4 grid of points (g, i, j).  At a point the pipeline stages two blocks of the SAME
  input array x : [4, 4096, 128] — rows 1024·i … 1024·i + 1023 of group g through the first window, rows
  1024·j … 1024·j + 1023 of group g through the second — and one block [1, 1024, 1024] of the result, at
  block index (g, i, j).  The body loads both input blocks whole, computes one value from them and stores it over
  the whole output block; it keeps nothing from one point to the next.

  Because both input windows read one array, the array's buffer is dealt between them: the first window holds the
  left half of the full share, the second the right half; the result's array is held outright.  With that
  dealing the launch for windows that share an array applies, and gives: the program terminates without a fault,
  the input array ends as it began, and the result array ends at what the pipeline computes from the blocks the
  body leaves (the value each point writes back is the body's value of that point's two input blocks).
-/
import proofs.«108892_j35837207118672_2_alg».proof.Proof.Gen.KernelIdeal.Launch
import proofs.«108892_j35837207118672_2_alg».proof.Proof.Gen.KernelIdeal.Skeleton
import proofs.«108892_j35837207118672_2_alg».proof.Proof.Gen.KernelIdeal.Points
import proofs.«108892_j35837207118672_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers of core `c` when the region is entered: the program is the region alone, so they are as launched. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The row window's staging buffer holds its block at every point, whether the point fetched it or not: when it
    is not fetched the block index has not moved since the last fetch, and the body leaves the block in place. -/
theorem rowBefore_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- The same for the column window. -/
theorem colBefore_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-! ## What the body leaves in the output block -/

/-- The whole input block and the whole output block, as the rectangles the body loads and stores through. -/
abbrev rIn : Rect S1x1024x128 := Rect.unit (s := S1x1024x128) ![0, 0, 0] S1x1024x128.size inb_S1x1024x128_S1x1024x128_0_0_0
abbrev rOut : Rect S1x1024x1024 := Rect.unit (s := S1x1024x1024) ![0, 0, 0] S1x1024x1024.size inb_S1x1024x1024_S1x1024x1024_0_0_0

/-- The output buffer after the body: its one store, of the body's value of the two input blocks, over the whole block. -/
def outBlock (x0 : Vec F S1x1024x128 .f32) (x1 : Vec F S1x1024x128 .f32) : Vec F S1x1024x1024 .f32 :=
  View.canon [⟨rOut, k0_pay1 (View.ld x0 rIn) (View.ld x1 rIn)⟩]

/-- That store covers the block. -/
theorem outCover (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole staging memrefs — the inputs' at contents read as `x0`, `x1`, the output's at anything —
    leaves the inputs as they were and the output at `outBlock x0 x1`. -/
theorem sound_kernel (c : Dev nD) (E : Set ℕ) (i : grid0.Coords)
    (arg3 : Memref sig .tc .vmem S1x1024x128 .f32) (harg3 : arg3.IsWhole)
    (arg4 : Memref sig .tc .vmem S1x1024x128 .f32) (harg4 : arg4.IsWhole)
    (arg5 : Memref sig .tc .vmem S1x1024x1024 .f32) (harg5 : arg5.IsWhole)
    (x0 : Vec F S1x1024x128 .f32) (x1 : Vec F S1x1024x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outBlock x0 x1)) -∗ K ⟨⟩))
      ⊢ wp frame (wpE (defs₀ (F := F)) Variants.none c none) E (cc0__kernel i arg3 harg3 arg4 harg4 arg5 harg5) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- On core `c`: the arrays as the region finds them; after the body at point `t` each input buffer at its block and
    the output buffer at `outBlock` of the two input blocks; between points only the scoped rest; the input array's
    share dealt left half / right half between the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => (fullShare : PosShare TreeShare).left
    | ⟨1, _⟩ => (fullShare : PosShare TreeShare).right
    | ⟨2, _⟩ => fullShare
  owed _ := 0

theorem A_eq (c : Dev nD) (w : Fin cfg0.W) : (dats m 0 c).A w = V m c (Pipeline.arrRef spec0 w) := by
  dsimp only [dats]

theorem afterRow (c : Dev nD) (t : Fin cfg0.N) : (dats m 0 c).after 0 t = iblk m c 0 t := by dsimp only [dats]
theorem afterCol (c : Dev nD) (t : Fin cfg0.N) : (dats m 0 c).after 1 t = iblk m c 1 t := by dsimp only [dats]
theorem afterOut (c : Dev nD) (t : Fin cfg0.N) :
    (dats m 0 c).after 2 t = outBlock (iblk m c 0 t) (iblk m c 1 t) := by dsimp only [dats]

theorem beforeRow (c : Dev nD) (t : Fin cfg0.N) (d) : (dats m 0 c).before 0 t d = iblk m c 0 t :=
  rowBefore_of m (dats m 0 c) (A_eq m c 0) (afterRow m c) t d
theorem beforeCol (c : Dev nD) (t : Fin cfg0.N) (d) : (dats m 0 c).before 1 t d = iblk m c 1 t :=
  colBefore_of m (dats m 0 c) (A_eq m c 1) (afterCol m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and what the core
    owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeRow, beforeCol]
  rw [show (dats m 0 c).Φ t.succ = (dats m 0 c).Φ t.castSucc from rfl,
    show (dats m 0 c).owesAt () t.succ = (dats m 0 c).owesAt () t.castSucc from rfl,
    afterRow, afterCol, afterOut]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## Dealing the input array between its two windows -/

/-- The two distinct buffers behind the three windows' arrays, each whole at the full share, give the three windows'
    holdings: the input array's full share splits into its left and right halves, one per reading window. -/
theorem deal (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_v0] (by decide) (by decide), bigSep_W0]
  simp only [bigSepL_cons_cons, bigSepL_singleton]
  have hs0 : (dats m 0 c).share 0 = (fullShare : PosShare TreeShare).left := rfl
  have hs1 : (dats m 0 c).share 1 = (fullShare : PosShare TreeShare).right := rfl
  have hs2 : (dats m 0 c).share 2 = fullShare := rfl
  rw [hs0, hs1, hs2, (arr_whole0 0).set_eq_univ, (arr_whole0 2).set_eq_univ]
  refine (Idealize.SL.BI.sep_mono_l (pointsTo_share (PosShare.mem_left_op_right fullShare)).1).trans ?_
  show (iprop((_ ∗ _) ∗ _) : sProp 𝕄) ⊢ _
  iintro ⟨⟨Hl, Hr⟩, Hv⟩
  isplitl [Hl]; · iexact Hl
  isplitl [Hr]; · iexact Hr
  iexact Hv

/-! ## The run and the frame -/

set_option backward.isDefEq.respectTransparency.types false in
/-- Every weakly fair execution of the program terminates without a fault; at the end every window's array holds
    what the pipeline computes from the proof data, and every other unscoped buffer what it held at the start. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0
    m ρ main (hbody := fun c => (body_obligation m c).loose) (howed := fun _ _ => rfl) (V := V m)
    (hmain := hmain m Variants.none) (hsplit := deal m) (hΦ := fun _ _ => rfl)

/-- The input array is only read: it ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Sim

end
-- ==== Proof.SimSpec.lean ====
/-
  The weighted adjacency of pairwise similarities, as one function of the node features.

  For node features x : [4, 4096, 128] (group g, node n, feature k) the similarity of nodes n and n' of group g is
  the inner product  s = Σ_k x[g, n, k] · x[g, n', k]  over the 128 features; it is squashed by the logistic
  function  σ(s) = 1 / (1 + e^(−s))  and kept only where it reaches the threshold:
      adj[g, n, n'] = 0      if σ(s) < θ,
                      σ(s)   otherwise,
  with θ the single-precision number nearest 0.6 (the same 32-bit pattern on both sides, so its value is never
  needed).  Over the extended reals every operation here is total, so `adj` is defined for any x whatever.

  The one law that joins the two programs is about σ alone: the host spells it out as the quotient
  1 / (1 + exp(−s)) with its own division and exponential, the kernel has it as one operation; over the extended
  reals these are the same function of s (at −∞ both are 0, at +∞ both are 1), and the pattern 0x3F800000 is the
  number 1.
-/
import Idealize.ShloMosaic.PureOps.Ideal
import Idealize.ShloMosaic.PureOps.Ideal.Laws
import Idealize.ShloMosaic.Lib.ValueIdx
import Idealize.ShloMosaic.Lib.IdealHost

noncomputable section

namespace SimSpec

open Idealize.ShloMosaic Idealize.ShloMosaic.ValueIdx

/-- Node features [group, node, feature] and the adjacency [group, node, node]. -/
abbrev SX : Shape := ⟨3, ![4, 4096, 128]⟩
abbrev SY : Shape := ⟨3, ![4, 4096, 4096]⟩

/-- Keep a squashed similarity only where it reaches the threshold θ (pattern 0x3F19999A); below it, zero. -/
def cutoff (s : Ideal .f32) : Ideal .f32 :=
  Scalar.select (FloatOps.cmpf .olt (FloatOps.logistic s) (FloatOps.ofBits .f32 0x3F19999A#32))
    (FloatOps.ofBits .f32 0x00000000#32) (FloatOps.logistic s)

/-- The inner product of the feature rows of nodes `n` and `n'` of group `g`. -/
def inner (x : SX.Idx → Ideal .f32) (g : Fin 4) (n n' : Fin 4096) : Ideal .f32 :=
  ∑ k : Fin 128, x (ix3 g n k) * x (ix3 g n' k)

/-- The adjacency: the thresholded logistic of every pair's inner product. -/
def adj (x : SX.Idx → Ideal .f32) : SY.Idx → Ideal .f32 := fun i => cutoff (inner x (i 0) (i 1) (i 2))

/-- The host's spelling of the logistic function, 1 / (1 + exp(−s)) with the pattern 0x3F800000 for 1, is the
    logistic function on every extended real. -/
theorem host_logistic (s : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf s)))
      = FloatOps.logistic s := by
  rw [Ideal.ofBits_def, Ideal.ofBits_one_f32]
  rfl

end SimSpec

end
-- ==== Proof.KernelIdealPayload.lean ====
/-
  The value the body stores, entry by entry.

  The body views its two input blocks [1, 1024, 128] as matrices A, B : [1024, 128], multiplies A by the transpose of
  B into a zero accumulator, squashes every entry by the logistic function and zeroes the entries below the threshold;
  the [1024, 1024] result is stored as a [1, 1024, 1024] block.  So the entry (0, p, q) of the stored block is the cutoff
  applied to  Σ_k A[p, k] · B[q, k],  and A[p, k] is the first block's entry (0, p, k), B[q, k] the second's (0, q, k).
-/
import proofs.«108892_j35837207118672_2_alg».proof.Proof.Gen.KernelIdeal.Skeleton
import proofs.«108892_j35837207118672_2_alg».proof.Proof.SimSpec
import Idealize.ShloMosaic.Lib.Pipeline.Value
import Idealize.ShloMosaic.Lib.ValueIdx
import Idealize.ShloMosaic.PureOps.Ideal.Laws

noncomputable section

namespace Cert.KernelIdeal.SimValue

open Cert.KernelIdeal Cert.KernelIdeal.Gen
open Idealize.ShloMosaic Idealize.ShloMosaic.ValueIdx

/-- The product's dimension record: both operands contract their second axis. -/
abbrev D := dot_S1024x128_S1024x128_S1024x1024_1_1_0_0_n_n

/-! ## Which operand entries an entry of the product reads -/

theorem lhs_row (j : S1024x1024.Idx) (r : D.contr.Idx) : (D.lhsIdx j r 0).val = (j 0).val := by
  unfold DotDims.lhsIdx
  rw [dif_neg (show ¬(0 : Fin S1024x128.rank) ∈ D.lhsBatch by decide), dif_pos (show (0 : Fin S1024x128.rank) ∈ D.lhsNonContracting by decide)]
  rfl
theorem lhs_feat (j : S1024x1024.Idx) (r : D.contr.Idx) : (D.lhsIdx j r 1).val = (r ⟨0, by decide⟩).val :=
  D.lhsIdx_val_of_single rfl j r
theorem rhs_row (j : S1024x1024.Idx) (r : D.contr.Idx) : (D.rhsIdx j r 0).val = (j 1).val := by
  unfold DotDims.rhsIdx
  rw [dif_neg (show ¬(0 : Fin S1024x128.rank) ∈ D.rhsBatch by decide), dif_pos (show (0 : Fin S1024x128.rank) ∈ D.rhsNonContracting by decide)]
  rfl
theorem rhs_feat (j : S1024x1024.Idx) (r : D.contr.Idx) : (D.rhsIdx j r 1).val = (r ⟨0, by decide⟩).val :=
  D.rhsIdx_val_of_single rfl j r

/-- Entry (p, q) of A · Bᵀ into the zero accumulator is the inner product of row p of A and row q of B. -/
theorem product_entry (a b : FVec Ideal S1024x128 .f32) (p q : Fin 1024) :
    matmul D (some .fp32) a b (constant (F := Ideal) S1024x1024 .f32 0x00000000#32) (ix2 p q)
      = ∑ k : Fin 128, a (ix2 p k) * b (ix2 q k) := by
  show FloatOps.matmul D (some .fp32) a b (constant (F := Ideal) S1024x1024 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_feat _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (rhs_feat _ _).trans hk)
  rw [el, er]

/-! ## The unit leading axis -/

/-- Dropping the leading unit axis of a block reads entry (0, p, k) at (p, k). -/
theorem block_as_matrix (x : Vec Ideal S1x1024x128 .f32) (p : Fin 1024) (k : Fin 128) :
    shapeCast S1024x128 x shapeCasts_S1x1024x128_S1024x128 (ix2 p k) = x (ix3 (0 : Fin 1) p k) := by
  refine (shapeCast_dropUnit_apply ![1024, 128] x shapeCasts_S1x1024x128_S1024x128 (ix2 p k)).trans ?_
  exact congrArg x (funext fun a => by match a with | ⟨0, _⟩ => rfl | ⟨1, _⟩ => rfl | ⟨2, _⟩ => rfl)

/-- Adding a leading unit axis to a matrix reads entry (p, q) at (z, p, q). -/
theorem matrix_as_block (y : FVec Ideal S1024x1024 .f32) (z : Fin 1) (p q : Fin 1024) :
    shapeCast S1x1024x1024 y shapeCasts_S1024x1024_S1x1024x1024 (ix3 z p q) = y (ix2 p q) := by
  refine (shapeCast_addUnit_apply ![1024, 1024] y shapeCasts_S1024x1024_S1x1024x1024 (ix3 z p q)).trans ?_
  exact congrArg y (funext fun a => by match a with | ⟨0, _⟩ => rfl | ⟨1, _⟩ => rfl)

/-! ## The stored value -/

/-- Entry (z, p, q) of the block the body stores is the cutoff of the inner product of the first block's row p and the
    second block's row q. -/
theorem stored_entry (x0 x1 : Vec Ideal S1x1024x128 .f32) (z : Fin 1) (p q : Fin 1024) :
    k0_pay1 (F := Ideal) x0 x1 (ix3 z p q)
      = SimSpec.cutoff (∑ k : Fin 128, x0 (ix3 (0 : Fin 1) p k) * x1 (ix3 (0 : Fin 1) q k)) := by
  unfold k0_pay1
  refine (matrix_as_block _ z p q).trans ?_
  show SimSpec.cutoff (matmul D (some .fp32) (shapeCast S1024x128 x0 shapeCasts_S1x1024x128_S1024x128)
      (shapeCast S1024x128 x1 shapeCasts_S1x1024x128_S1024x128) (constant (F := Ideal) S1024x1024 .f32 0x00000000#32) (ix2 p q)) = _
  refine congrArg SimSpec.cutoff ?_
  refine (product_entry _ _ p q).trans ?_
  exact Finset.sum_congr rfl fun k _ => by rw [block_as_matrix, block_as_matrix]

end Cert.KernelIdeal.SimValue

end
-- ==== Proof.KernelIdealArray.lean ====
/-
  From the blocks to the whole result array.

  Grid point t = (g, i, j) writes back the output block with block index (g, i, j): entries (g, 1024·i + p, 1024·j + q)
  of the result.  The first input window's block at t is rows 1024·i … of group g, the second's rows 1024·j … of group
  g.  So the entry the body stores at (p, q) — the cutoff of the inner product of row p of the first block and row q of
  the second — is the adjacency at (g, 1024·i + p, 1024·j + q): point t writes block t of `adj x`.

  Every index (g, n, n') of the result lies in the block of the point (g, n / 1024, n' / 1024), and every point
  writes its block back, so after the run the whole result array is `adj x`.
-/
import proofs.«108892_j35837207118672_2_alg».proof.Proof.KernelIdealFrame
import proofs.«108892_j35837207118672_2_alg».proof.Proof.KernelIdealPayload
import Idealize.ShloMosaic.Lib.Pipeline.Value

set_option maxRecDepth 16384

noncomputable section

namespace Cert.KernelIdeal.SimArray

open Cert.KernelIdeal Cert.KernelIdeal.Gen Cert.KernelIdeal.Sim
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl

/-- The three windows' block indices at a point, decided over the 64 points: the row window follows the output's
    first two axes, the column window its first and third, both at feature block 0; every index is below 4. -/
theorem block_indices : ∀ t : Fin cfg0.N,
    win0_0.index t (0 : Fin 3) = win0_2.index t (0 : Fin 3) ∧ win0_0.index t (1 : Fin 3) = win0_2.index t (1 : Fin 3)
      ∧ win0_0.index t (2 : Fin 3) = 0
      ∧ win0_1.index t (0 : Fin 3) = win0_2.index t (0 : Fin 3) ∧ win0_1.index t (1 : Fin 3) = win0_2.index t (2 : Fin 3)
      ∧ win0_1.index t (2 : Fin 3) = 0
      ∧ win0_2.index t (0 : Fin 3) ≤ 3 ∧ win0_2.index t (1 : Fin 3) ≤ 3 ∧ win0_2.index t (2 : Fin 3) ≤ 3 :=
  (by decide +kernel : ∀ t : Fin grid0.N, _)

/-- Every block index (g, i, j) below (4, 4, 4) is some point's. -/
theorem every_block : ∀ (q0 q1 q2 : Fin 4), ∃ t : Fin cfg0.N, win0_2.index t = ![q0.val, q1.val, q2.val] :=
  (by decide +kernel : ∀ (q0 q1 q2 : Fin 4), ∃ t : Fin grid0.N, win0_2.index t = ![q0.val, q1.val, q2.val])

/-- What point `t` writes back is block `t` of the adjacency of the input array. -/
theorem written_block (c : Dev nD) (t : Fin cfg0.N) :
    (dats m 0 c).flushed 2 t = ((cfg0.win 2).blk t).view.read (Elt Ideal) (SimSpec.adj (V m c main_arg0)) := by
  show (cfg0.win 2).cut (grid0.coords t) ((dats m 0 c).after 2 t) = _
  rw [afterOut]
  unfold outBlock
  rw [View.canon_unit_zero origin3]
  simp only [View.ld_unit_zero (S := S1x1024x128) origin3]
  obtain ⟨e00, e01, e02, e10, e11, e12, b0, b1, b2⟩ := block_indices t
  funext j
  obtain ⟨z, p, q, rfl⟩ : ∃ (z : Fin 1) (p q : Fin 1024), j = ix3 z p q := ⟨j 0, j 1, j 2, eq_ix3 j⟩
  show k0_pay1 (F := Ideal) (iblk m c 0 t) (iblk m c 1 t) (ix3 z p q)
      = SimSpec.adj (V m c main_arg0) (((cfg0.win 2).blk t).view.emb (ix3 z p q))
  refine (SimValue.stored_entry (iblk m c 0 t) (iblk m c 1 t) z p q).trans ?_
  unfold SimSpec.adj SimSpec.inner
  refine congrArg SimSpec.cutoff (Finset.sum_congr rfl fun k _ => ?_)
  have hz : z.val < 1 := z.isLt
  have hrow : ((cfg0.win 0).blk t).view.emb (ix3 (0 : Fin 1) p k)
      = ix3 ((((cfg0.win 2).blk t).view.emb (ix3 z p q)) 0) ((((cfg0.win 2).blk t).view.emb (ix3 z p q)) 1) k := by
    funext a; apply Fin.ext
    match a with
    | ⟨0, _⟩ => show win0_0.index t (0 : Fin 3) * 1 + 1 * 0 = win0_2.index t (0 : Fin 3) * 1 + 1 * z.val; omega
    | ⟨1, _⟩ => show win0_0.index t (1 : Fin 3) * 1024 + 1 * p.val = win0_2.index t (1 : Fin 3) * 1024 + 1 * p.val; omega
    | ⟨2, _⟩ => show win0_0.index t (2 : Fin 3) * 128 + 1 * k.val = k.val; omega
  have hcol : ((cfg0.win 1).blk t).view.emb (ix3 (0 : Fin 1) q k)
      = ix3 ((((cfg0.win 2).blk t).view.emb (ix3 z p q)) 0) ((((cfg0.win 2).blk t).view.emb (ix3 z p q)) 2) k := by
    funext a; apply Fin.ext
    match a with
    | ⟨0, _⟩ => show win0_1.index t (0 : Fin 3) * 1 + 1 * 0 = win0_2.index t (0 : Fin 3) * 1 + 1 * z.val; omega
    | ⟨1, _⟩ => show win0_1.index t (1 : Fin 3) * 1024 + 1 * q.val = win0_2.index t (2 : Fin 3) * 1024 + 1 * q.val; omega
    | ⟨2, _⟩ => show win0_1.index t (2 : Fin 3) * 128 + 1 * k.val = k.val; omega
  have erow : (iblk m c 0 t (ix3 (0 : Fin 1) p k) : Ideal .f32)
      = V m c main_arg0 (ix3 ((((cfg0.win 2).blk t).view.emb (ix3 z p q)) 0) ((((cfg0.win 2).blk t).view.emb (ix3 z p q)) 1) k) :=
    congrArg (V m c main_arg0) hrow
  have ecol : (iblk m c 1 t (ix3 (0 : Fin 1) q k) : Ideal .f32)
      = V m c main_arg0 (ix3 ((((cfg0.win 2).blk t).view.emb (ix3 z p q)) 0) ((((cfg0.win 2).blk t).view.emb (ix3 z p q)) 2) k) :=
    congrArg (V m c main_arg0) hcol
  exact congrArg₂ (fun (u v : Ideal .f32) => u * v) erow ecol

/-- An index of the result is in point `t`'s block exactly when each coordinate is in the block's range on its axis. -/
theorem mem_block (t : Fin cfg0.N) (i : S4x4096x4096.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the result is in the block of the point (g, n / 1024, n' / 1024), which is written back. -/
theorem covered (i : S4x4096x4096.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 4096 := (i 2).isLt
  obtain ⟨t, ht⟩ := every_block ⟨(i 0).val, h0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- After the run the result array is the adjacency of the input array. -/
theorem result_array (c : Dev nD) :
    (dats m 0 c).arrAt 2 cfg0.N = SimSpec.adj (m ((c : Thread nD τ).loc main_arg0)) :=
  (dats m 0 c).arrAt_eq_of_cover 2 (SimSpec.adj (V m c main_arg0)) (fun t _ => written_block m c t) covered

/-- The run, read: the result array ends at the adjacency of the input array, and the input array as it began. -/
theorem run : θ_run defs (onTc (τ := τ) (main (F := Ideal))) ⟨m, fun _ => 0, ρ⟩ fun r => ∀ c : Dev nD,
      r.2.mem ((c : Thread nD τ).loc main_v0) = SimSpec.adj (m ((c : Thread nD τ).loc main_arg0))
      ∧ r.2.mem ((c : Thread nD τ).loc main_arg0) = m ((c : Thread nD τ).loc main_arg0) :=
  (θ_run defs _ _).mono (fun r h c => ⟨((h c).1 2).trans (result_array m c),
      ((h c).1 0).trans (((dats m 0 c).arrAt_in 0 rfl _).trans (A_eq m c 0))⟩)
    (run_main m ρ)

end Cert.KernelIdeal.SimArray

end
-- ==== Proof.RefAdj.lean ====
/-
  What the reference computes is the adjacency of the specification.

  Reading the reference one operation at a time at an index (g, n, n'): its batched matrix product is the inner
  product of the feature rows of nodes n and n' of group g; negate, exponential, add one and divide one by the result
  spell the logistic function, which over the extended reals is the logistic function itself; the comparison with
  the threshold and the selection of zero are the cutoff.
-/
import proofs.«108892_j35837207118672_2_alg».proof.Proof.Gen.ReferenceIdeal.Read
import proofs.«108892_j35837207118672_2_alg».proof.Proof.SimSpec

noncomputable section

namespace Cert.ReferenceIdeal.SimRef

open Cert.ReferenceIdeal Cert.ReferenceIdeal.Gen Cert.ReferenceIdeal.Read
open Idealize.ShloMosaic Idealize.ShloMosaic.ValueIdx

/-- The left operand of the product at (g, n, n') and feature k is row n of group g, -/
theorem left_row (i : S4x4096x4096.Idx) (k : Fin 128) : lidx_main_v0 i k = ix3 (i 0) (i 1) k :=
  funext fun a => by match a with | ⟨0, _⟩ => rfl | ⟨1, _⟩ => rfl | ⟨2, _⟩ => rfl

/-- and the right operand row n' of the same group. -/
theorem right_row (i : S4x4096x4096.Idx) (k : Fin 128) : ridx_main_v0 i k = ix3 (i 0) (i 2) k :=
  funext fun a => by match a with | ⟨0, _⟩ => rfl | ⟨1, _⟩ => rfl | ⟨2, _⟩ => rfl

/-- The reference's result, index by index, is the thresholded logistic of the pair's inner product. -/
theorem ref_is_adj (x0 : (⟨S4x4096x128, .f32⟩ : BufTy).Contents (Elt Ideal)) :
    val_main_v9 (F := Ideal) x0 = SimSpec.adj x0 := by
  funext i
  have hdot : val_main_v0 (F := Ideal) x0 i = SimSpec.inner x0 (i 0) (i 1) (i 2) := by
    rw [val_main_v0_apply]
    unfold SimSpec.inner
    exact Finset.sum_congr rfl fun k _ => by rw [left_row, right_row]; rfl
  rw [val_main_v9_apply, val_main_v8_apply, val_main_call0_v0_apply, val_main_cst_2_apply, val_main_v7_apply,
    val_main_cst_1_apply, val_main_v6_apply, val_main_v5_apply, val_main_cst_0_apply, val_main_v4_apply,
    val_main_v3_apply, val_main_cst_apply, val_main_v2_apply, val_main_v1_apply, hdot, SimSpec.host_logistic]
  rfl

end Cert.ReferenceIdeal.SimRef

end
-- ==== Proof.lean ====
/-
  The pairwise-similarity kernel against its reference, over the extended reals.

  Both programs take node features x : [4, 4096, 128] and return, for every group g and every pair of nodes (n, n'),
      adj[g, n, n'] = 0 if σ(s) < θ, else σ(s),     s = Σ_k x[g, n, k] · x[g, n', k],   σ(s) = 1 / (1 + e^(−s)),
  with θ the single-precision number nearest 0.6.

  The kernel tiles the result into 4 × 4 × 4 blocks of 1024 × 1024 entries.  At block (g, i, j) it stages rows
  1024·i … of group g and rows 1024·j … of group g — two windows onto the one input array —, multiplies the first by
  the transpose of the second, applies σ and the threshold, and writes the block back.  The reference forms the batched
  product of x with itself, spells σ as 1 / (1 + exp(−s)) with the host's own operations, and selects.

  * The kernel runs to the end, faults nowhere and leaves x unchanged — as printed and as idealized: the two windows
    share x's buffer, each holding half of the full share, which is enough to read it (KernelFrame, KernelIdealFrame,
    over the shared-array launch of LibSharedFrame).
  * The idealization rewrote nothing, so it preserves the kernel trivially.
  * The idealized kernel's result is `adj x`: each point writes block (g, i, j) of it, and the blocks cover the result
    (KernelIdealPayload, KernelIdealArray).  The reference's result is `adj x` too: its product at (g, n, n') is the same
    sum over k, and its spelling of σ is σ on every extended real (RefAdj, SimSpec).  No finiteness of x is used:
    sums and products of extended reals are total and the two sides apply the same operations in the same order.
-/
import proofs.«108892_j35837207118672_2_alg».proof.Defs
import proofs.«108892_j35837207118672_2_alg».proof.Proof.Gen.Kernel
import proofs.«108892_j35837207118672_2_alg».proof.Proof.Gen.KernelIdeal
import proofs.«108892_j35837207118672_2_alg».proof.Proof.Gen.ReferenceIdeal
import proofs.«108892_j35837207118672_2_alg».proof.Proof.Gen.Pre_finite_inputs
import proofs.«108892_j35837207118672_2_alg».proof.Proof.Gen.ReferenceIdeal.Run
import proofs.«108892_j35837207118672_2_alg».proof.Proof.Gen.ReferenceIdeal.Read
import proofs.«108892_j35837207118672_2_alg».proof.Proof.KernelFrame
import proofs.«108892_j35837207118672_2_alg».proof.Proof.KernelIdealFrame
import proofs.«108892_j35837207118672_2_alg».proof.Proof.KernelIdealArray
import proofs.«108892_j35837207118672_2_alg».proof.Proof.RefAdj
import Idealize.ShloMosaic.Adequacy
import Idealize.ShloMosaic.Init

noncomputable section

namespace Cert.Proof

open Idealize.ShloMosaic Idealize.ShloMosaic.TcCoe Idealize.SL.Sem

/-- The kernel as printed runs and leaves its input unchanged. -/
theorem frame_kernel : Cert.frame_Kernel := fun m ρ _ => Cert.Kernel.Sim.frame m ρ

/-- So does its idealization. -/
theorem frame_ideal : Cert.frame_KernelIdeal := fun m ρ _ => Cert.KernelIdeal.Sim.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x, both programs end with the adjacency of x. -/
theorem algebraic : Cert.algebraic_KernelIdeal_ReferenceIdeal := by
  intro m ρ m' ρ' _ hagree
  refine ⟨fun c => SimSpec.adj (m ((c.tc : Thread Cert.KernelIdeal.nD Cert.KernelIdeal.τ).loc Cert.KernelIdeal.main_arg0)),
    Cert.KernelIdeal.SimArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.SimRef.ref_is_adj, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
